-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) (main_arg1 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192x8192 : Shape := ⟨2, ![8192, 8192]⟩
abbrev S128x8192 : Shape := ⟨2, ![128, 8192]⟩
abbrev S64x8192 : Shape := ⟨2, ![64, 8192]⟩
abbrev S64 : Shape := ⟨1, ![64]⟩
abbrev S64x1 : Shape := ⟨2, ![64, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x8192, .f32⟩
  | .hbm, ⟨3, _⟩ => ⟨S8192x8192, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S128x8192, .f32⟩
  | .local _ .vmem, ⟨5, _⟩ => ⟨S128x8192, .f32⟩
  | .local _ .vmem, ⟨6, _⟩ => ⟨S128x8192, .f32⟩
  | .local _ .vmem, ⟨7, _⟩ => ⟨S128x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S128x8192_S64x8192_0_0 : ∀ a, (![0, 0] : Fin 2 → Nat) a + S64x8192.size a ≤ S128x8192.size a
  h_S64x8192 : 0 < S64x8192.numel
  reduces_S64x8192_S64 : S64x8192.Reduces [1] S64
  shapeCasts_S64_S64x1 : S64.ShapeCasts S64x1
  broadcasts_S64x1_S64x8192 : S64x1.Broadcasts S64x8192
  inb_S128x8192_S64x8192_64_0 : ∀ a, (![64, 0] : Fin 2 → Nat) a + S64x8192.size a ≤ S128x8192.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S8192x8192.size a
  hwx0_1 : ∀ i : grid0.Coords, EltTy.bits .f32 = 32 ∨ (Rect.block (s := S8192x8192) S128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S8192x8192.size a
  hwx0_2 : ∀ i : grid0.Coords, EltTy.bits .f32 = 32 ∨ (Rect.block (s := S8192x8192) S128x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x8192.size a ≤ S8192x8192.size a
  hwx0_3 : ∀ i : grid0.Coords, EltTy.bits .f32 = 32 ∨ (Rect.block (s := S8192x8192) S128x8192.size (cc0_transform_3 i) (hinb0_3 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S128x8192.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S128x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 30
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S_, .f32⟩
  | .hbm, ⟨3, _⟩ => ⟨S8192, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x1, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S8192x8192, .f32⟩
  | .hbm, ⟨28, _⟩ => ⟨S8192x8192, .f32⟩
  | .hbm, ⟨29, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)

variable [Facts₀]

class Facts : Prop extends Facts₀ where

variable [Facts]
-- ==== Proof.LibLane.lean ====
/-
  Lane operations of a two-axis array read at an index, over any extents `a × b`:

  * `ld_lanes`: a unit-stride load of `b` consecutive lanes from lane `off` of every row of an `a × n` block reads,
    at (r, j), the block at (r, off + j);
  * `lift_lane`: the index over row `r` of the lane-reduced shape `[a]` whose lane is `k` is (r, k);
  * `reduceAdd_lane_apply`: the sum over the lanes (`Ideal.reduceAdd` over axis 1) reads, at row `r`, the sum of the row;
  * `reduceFold_max_lane_apply`: the fold of `maximumf` over the lanes (`reduceFold` over axis 1) reads, at row `r`, the
    `Finset.fold max` of the row from the starting value;
  * `exp_apply`, `log_apply`, `absf_apply`, `cmpf_ideal_apply`: the entry-by-entry operations the library's index file
    does not list, at the extended reals.

  A `vector.multi_reduction <add>` over one axis is, by definition, `FloatOps.reduceAdd` of the source over that axis — at
  the extended reals `Ideal.reduceAdd` — and a `<maximumf>` one is `reduceFold` of `maximumf` from the accumulator's value:
  the sum lemma and the maximum lemma are stated over those two forms.
-/
import Idealize.ShloMosaic.Lib.Pipeline.FrameBody
import Idealize.ShloMosaic.Lib.Pipeline.Value
import Idealize.ShloMosaic.Lib.ValueIdx
import Idealize.ShloMosaic.PureOps.Ideal.Laws

noncomputable section

namespace Cert.LibLane

open Idealize.ShloMosaic Idealize.ShloMosaic.ValueIdx

/-! ## Entry-by-entry operations -/

theorem exp_apply {s : Shape} (v : FVec Ideal s .f32) (i : s.Idx) : exp v i = Ideal.exp (v i) := rfl
theorem log_apply {s : Shape} (v : FVec Ideal s .f32) (i : s.Idx) : log v i = Ideal.log (v i) := rfl
theorem absf_apply {s : Shape} (v : FVec Ideal s .f32) (i : s.Idx) : absf v i = max (v i) (-(v i)) := rfl
theorem cmpf_ideal_apply {s : Shape} (p : CmpFPredicate) (a b : FVec Ideal s .f32) (i : s.Idx) :
    cmpf p a b i = Ideal.cmp p (a i) (b i) := rfl

/-! ## A load of `b` consecutive lanes, from lane `off`, of every row of an `a × n` block -/

/-- The load reads, at row `r` and lane `j` of the piece, the block at row `r` and lane `off + j`. -/
theorem ld_lanes {α : Type} {a b n : ℕ} (X : (⟨2, ![a, n]⟩ : Shape).Idx → α) (off : ℕ)
    (inb : ∀ ax, (![0, off] : Fin 2 → ℕ) ax + (⟨2, ![a, b]⟩ : Shape).size ax ≤ (⟨2, ![a, n]⟩ : Shape).size ax)
    (r : Fin a) (j : Fin b) (hj : off + j.val < n) :
    (fun x => X ((Rect.unit (s := ⟨2, ![a, n]⟩) ![0, off] (⟨2, ![a, b]⟩ : Shape).size inb).idx x)) (ix2 r j)
      = X (ix2 r ⟨off + j.val, hj⟩) := by
  show X _ = X _
  congr 1
  funext ax
  apply Fin.ext
  match ax with
  | ⟨0, _⟩ => show 0 + 1 * r.val = r.val; omega
  | ⟨1, _⟩ => show off + 1 * j.val = off + j.val; omega

/-! ## A lane reduction kept as a column -/

/-- The index of an `a × b` array over row `r` whose lane is `k`. -/
theorem lift_lane {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The sum over the lanes of an `a × b` array reads, at row `r`, the sum of the row. -/
theorem reduceAdd_lane_apply {a b : ℕ} (v : FVec Ideal ⟨2, ![a, b]⟩ .f32)
    (h : (⟨2, ![a, b]⟩ : Shape).Reduces [1] (⟨1, ![a]⟩ : Shape)) (r : Fin a) :
    Ideal.reduceAdd h v (ix1 r) = ∑ j : Fin b, v (ix2 r j) := by
  rw [Ideal.reduceAdd_single]
  exact Finset.sum_congr rfl fun k _ => congrArg v (lift_lane h r k)

/-- The maximum over the lanes likewise: at row `r` the fold of `max` over the row from the starting value. -/
theorem reduceFold_max_lane_apply {a b : ℕ} (v : FVec Ideal ⟨2, ![a, b]⟩ .f32)
    (h : (⟨2, ![a, b]⟩ : Shape).Reduces [1] (⟨1, ![a]⟩ : Shape)) (init : Ideal .f32) (r : Fin a) :
    reduceFold h (FloatOps.maximumf (F := Ideal) (φ := .f32)) init v (ix1 r)
      = (Finset.univ : Finset (Fin b)).fold max init fun j => v (ix2 r j) := by
  rw [reduceFold_eq_fold]
  refine (h.fold_filter_drop_single _ _ v (ix1 r)).trans ?_
  have hf : (v ∘ h.lift (ix1 r)) = fun k : Fin b => v (ix2 r k) := funext fun k => congrArg v (lift_lane h r k)
  exact congrArg (fun f => Finset.fold max init f (Finset.univ : Finset (Fin b))) hf

end Cert.LibLane

end
-- ==== Proof.LibColumn.lean ====
/-
  Two layout operations read at an index, for a sum kept as a column: a vector of `a` entries cast to an
  `a × 1` column reads, at (i, 0), the vector at `i`; and an `a × 1` column broadcast to `a × b` reads, at (p, c), the
  column's entry in row `p`, whatever the lane `c`. Both are stated over literal rank-2 indices built from their
  coordinates, so that they rewrite under a payload's other operations.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibColumnHost.lean ====
/-
  The host's two keepdims broadcasts read at an index: a vector of `a` entries placed as an `a × 1` column reads, at
  (i, 0), the vector at `i`; and an `a × 1` column spread over `b` lanes reads, at (p, c), the column's entry in row
  `p`, whatever the lane. Both are stated over literal rank-2 indices built from their coordinates.
-/
import Idealize.ShloMosaic.Lib.Pipeline.Value
import Idealize.ShloMosaic.Lib.ValueIdx

namespace Cert.LibColumnHost

open Idealize.ShloMosaic Idealize.ShloMosaic.ValueIdx

variable {α : Type}

/-- `[a]` placed along axis 0 of `[a, 1]` reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- An `[a, 1]` column spread to `[a, b]` reads, at `(p, c)`, the column's entry in row `p`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnHost
-- ==== Proof.LibRowwise.lean ====
/-
  Arrays of two axes treated one row at a time, over any extents `a × b`.

  * `rowOf X p` is row `p` of the array as a function of the lane; `onRows f X` is the array each of whose rows is `f`
    of the same row of `X`; `onRows2 g X Y` the same for a function `g` of a row of `X` and the same row of `Y`.
  * `onRows_comp`, `onRows2_comp`: when an array is read through a map of indices that sends row `p` to row `ρ p` and
    keeps the lane (a block of whole rows of a larger array, a rectangle of whole rows of a block), treating the rows
    of the part is treating the rows of the whole and reading the result through the same map; `rowsRect_emb`: a
    unit-stride rectangle of `a'` whole rows from row `o` is such a map.
  * `onRows2_onRows`: a function of two rows after a function of the first row is one function of two rows.
  * a reduction over the lanes read at a row — a kernel's `vector.multi_reduction` (`laneSum_apply`: the row's sum;
    `laneMax_apply`: the fold of `max` over the row from the accumulator's value) and a host program's
    `stablehlo.reduce` (`hostSum_apply`: the initial value plus the row's sum; `hostMax_apply`: the fold of `max` from
    the initial value) — and the two spellings of a column of row values spread back over the lanes
    (`spread_apply`: a shape cast `[a] → [a, 1]` then a broadcast to `[a, b]`; `hostSpread_apply`: two
    `broadcast_in_dim`s), each of which reads, at (p, q), the column's value for row `p`.
-/
import Idealize.ShloMosaic.Lib.Pipeline.FrameBody
import Idealize.ShloMosaic.Lib.Pipeline.Value
import Idealize.ShloMosaic.Lib.ValueIdx
import Idealize.ShloMosaic.PureOps.Ideal.Laws
import proofs.«155725_j62397284876677_2_alg».proof.Proof.LibLane
import proofs.«155725_j62397284876677_2_alg».proof.Proof.LibColumn
import proofs.«155725_j62397284876677_2_alg».proof.Proof.LibColumnHost

noncomputable section

namespace Cert.LibRowwise

open Idealize.ShloMosaic Idealize.ShloMosaic.ValueIdx

/-! ## Rows -/

section Rows
variable {α : Type} {a a' b : ℕ}

/-- Row `p` of an `a × b` array. -/
def rowOf (X : (⟨2, ![a, b]⟩ : Shape).Idx → α) (p : Fin a) : Fin b → α := fun k => X (ix2 p k)

theorem rowOf_apply (X : (⟨2, ![a, b]⟩ : Shape).Idx → α) (p : Fin a) (k : Fin b) : rowOf X p k = X (ix2 p k) := rfl

/-- The array each of whose rows is `f` of the same row of `X`. -/
def onRows (f : (Fin b → α) → Fin b → α) (X : (⟨2, ![a, b]⟩ : Shape).Idx → α) : (⟨2, ![a, b]⟩ : Shape).Idx → α :=
  fun y => f (rowOf X ⟨(y 0).val, (y 0).isLt⟩) ⟨(y 1).val, (y 1).isLt⟩

/-- The array each of whose rows is `g` of the same rows of `X` and of `Y`. -/
def onRows2 (g : (Fin b → α) → (Fin b → α) → Fin b → α) (X Y : (⟨2, ![a, b]⟩ : Shape).Idx → α) :
    (⟨2, ![a, b]⟩ : Shape).Idx → α :=
  fun y => g (rowOf X ⟨(y 0).val, (y 0).isLt⟩) (rowOf Y ⟨(y 0).val, (y 0).isLt⟩) ⟨(y 1).val, (y 1).isLt⟩

theorem onRows_ix2 (f : (Fin b → α) → Fin b → α) (X : (⟨2, ![a, b]⟩ : Shape).Idx → α) (p : Fin a) (q : Fin b) :
    onRows f X (ix2 p q) = f (rowOf X p) q := rfl

theorem onRows2_ix2 (g : (Fin b → α) → (Fin b → α) → Fin b → α) (X Y : (⟨2, ![a, b]⟩ : Shape).Idx → α) (p : Fin a)
    (q : Fin b) : onRows2 g X Y (ix2 p q) = g (rowOf X p) (rowOf Y p) q := rfl

/-- Row `p` of `onRows f X` is `f` of row `p` of `X`. -/
theorem rowOf_onRows (f : (Fin b → α) → Fin b → α) (X : (⟨2, ![a, b]⟩ : Shape).Idx → α) (p : Fin a) :
    rowOf (onRows f X) p = f (rowOf X p) := rfl

/-- A function of two rows after a function of the first row. -/
theorem onRows2_onRows (g : (Fin b → α) → (Fin b → α) → Fin b → α) (f : (Fin b → α) → Fin b → α)
    (X Y : (⟨2, ![a, b]⟩ : Shape).Idx → α) : onRows2 g (onRows f X) Y = onRows2 (fun x y => g (f x) y) X Y := rfl

/-- Row `p` of an array read through a map of indices that sends row `p` to row `ρ p` and keeps the lane is row
    `ρ p` of the array. -/
theorem rowOf_comp (X : (⟨2, ![a, b]⟩ : Shape).Idx → α) (e : (⟨2, ![a', b]⟩ : Shape).Idx → (⟨2, ![a, b]⟩ : Shape).Idx)
    (ρ : Fin a' → Fin a) (he : ∀ p q, e (ix2 p q) = ix2 (ρ p) q) (p : Fin a') :
    rowOf (fun y => X (e y)) p = rowOf X (ρ p) :=
  funext fun k => congrArg X (he p k)

/-- Treating the rows of a part made of whole rows is treating the rows of the whole, read through the same map. -/
theorem onRows_comp (f : (Fin b → α) → Fin b → α) (X : (⟨2, ![a, b]⟩ : Shape).Idx → α)
    (e : (⟨2, ![a', b]⟩ : Shape).Idx → (⟨2, ![a, b]⟩ : Shape).Idx) (ρ : Fin a' → Fin a)
    (he : ∀ p q, e (ix2 p q) = ix2 (ρ p) q) (j : (⟨2, ![a', b]⟩ : Shape).Idx) :
    onRows f (fun y => X (e y)) j = onRows f X (e j) := by
  obtain ⟨p, q, rfl⟩ : ∃ (p : Fin a') (q : Fin b), j = ix2 p q := ⟨j 0, j 1, eq_ix2 j⟩
  rw [he p q, onRows_ix2, onRows_ix2, rowOf_comp X e ρ he p]

theorem onRows2_comp (g : (Fin b → α) → (Fin b → α) → Fin b → α) (X Y : (⟨2, ![a, b]⟩ : Shape).Idx → α)
    (e : (⟨2, ![a', b]⟩ : Shape).Idx → (⟨2, ![a, b]⟩ : Shape).Idx) (ρ : Fin a' → Fin a)
    (he : ∀ p q, e (ix2 p q) = ix2 (ρ p) q) (j : (⟨2, ![a', b]⟩ : Shape).Idx) :
    onRows2 g (fun y => X (e y)) (fun y => Y (e y)) j = onRows2 g X Y (e j) := by
  obtain ⟨p, q, rfl⟩ : ∃ (p : Fin a') (q : Fin b), j = ix2 p q := ⟨j 0, j 1, eq_ix2 j⟩
  rw [he p q, onRows2_ix2, onRows2_ix2, rowOf_comp X e ρ he p, rowOf_comp Y e ρ he p]

/-- A unit-stride rectangle of `a'` whole rows from row `o` of an `a × b` array sends (p, q) to (o + p, q). -/
theorem rowsRect_emb (o : ℕ)
    (inb : ∀ ax, (![o, 0] : Fin 2 → ℕ) ax + (⟨2, ![a', b]⟩ : Shape).size ax ≤ (⟨2, ![a, b]⟩ : Shape).size ax)
    (p : Fin a') (q : Fin b) (hp : o + p.val < a) :
    (Rect.unit (s := ⟨2, ![a, b]⟩) ![o, 0] (⟨2, ![a', b]⟩ : Shape).size inb).emb (ix2 p q) = ix2 ⟨o + p.val, hp⟩ q := by
  funext ax
  apply Fin.ext
  match ax with
  | ⟨0, _⟩ => show o + 1 * p.val = o + p.val; omega
  | ⟨1, _⟩ => show 0 + 1 * q.val = q.val; omega

end Rows

/-! ## A column of row values spread back over the lanes -/

section Spread
variable {α : Type} {a b : ℕ}

/-- A kernel's spelling: `[a]` cast to `[a, 1]` and broadcast to `[a, b]`. -/
theorem spread_apply (c : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (q : Fin b) :
    broadcastTo ⟨2, ![a, b]⟩ (shapeCast ⟨2, ![a, 1]⟩ c hc) hb (ix2 p q) = c (ix1 p) :=
  (Cert.LibColumn.broadcastTo_a1_ab_apply _ hb p q).trans (Cert.LibColumn.shapeCast_a_a1_apply c hc p 0)

/-- A host program's spelling: `[a]` placed along axis 0 of `[a, 1]`, then spread to `[a, b]`. -/
theorem hostSpread_apply (c : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (q : Fin b) :
    broadcastInDim ⟨2, ![a, b]⟩ ![0, 1] h2 (broadcastInDim ⟨2, ![a, 1]⟩ ![0] h1 c) (ix2 p q) = c (ix1 p) :=
  (Cert.LibColumnHost.broadcastInDim_a1_ab_apply _ h2 p q).trans (Cert.LibColumnHost.broadcastInDim_a_a1_apply c h1 p 0)

end Spread

/-! ## Reductions over the lanes, at a row -/

section Reduce
variable {a b : ℕ}

/-- A kernel's lane sum at row `r` is the row's sum. -/
theorem laneSum_apply (v : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (r : Fin a) :
    multiReduction .add [1] ⟨1, ![a]⟩ v 0x00000000#32 h hφ hacc (ix1 r) = ∑ j : Fin b, rowOf v r j :=
  Cert.LibLane.reduceAdd_lane_apply v h r

/-- A kernel's lane maximum at row `r` is the fold of `max` over the row from the accumulator's value. -/
theorem laneMax_apply (v : FVec Ideal ⟨2, ![a, b]⟩ .f32) (h : (⟨2, ![a, b]⟩ : Shape).Reduces [1] (⟨1, ![a]⟩ : Shape))
    (hφ : FKind.Formats .f32) (w : BitVec 32) (hacc : w = FKind.maximumf.neutral .f32 hφ) (r : Fin a) :
    multiReduction .maximumf [1] ⟨1, ![a]⟩ v w h hφ hacc (ix1 r)
      = (Finset.univ : Finset (Fin b)).fold max (Ideal.ofBits .f32 w) (rowOf v r) :=
  Cert.LibLane.reduceFold_max_lane_apply v h (Ideal.ofBits .f32 w) r

/-- A host sum over the lanes at row `r` is the initial value plus the row's sum. -/
theorem hostSum_apply {u : Shape} (v : FVec Ideal ⟨2, ![a, b]⟩ .f32) (init : u.Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduceAdd (F := Ideal) v init h' hu (ix1 r) = init (Shape.Idx.first hu) + ∑ j : Fin b, rowOf v r j := by
  show Ideal.hostReduceAdd h' v (init (Shape.Idx.first hu)) (ix1 r) = _
  rw [Ideal.hostReduceAdd_single h' h]
  exact congrArg (_ + ·) (Finset.sum_congr rfl fun k _ => congrArg v (Cert.LibLane.lift_lane h r k))

/-- A host maximum over the lanes at row `r` is the fold of `max` over the row from the initial value. -/
theorem hostMax_apply {u : Shape} (v : FVec Ideal ⟨2, ![a, b]⟩ .f32) (init : u.Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce (FloatOps.maximumf (F := Ideal) (φ := .f32)) v init h' hu (ix1 r)
      = (Finset.univ : Finset (Fin b)).fold max (init (Shape.Idx.first hu)) (rowOf v r) := by
  rw [Host.reduce_eq_fold_single FloatOps.maximumf v init h' h hu]
  have hf : (v ∘ h.lift (ix1 r)) = rowOf v r := funext fun k => congrArg v (Cert.LibLane.lift_lane h r k)
  exact congrArg (fun f => Finset.fold max (init (Shape.Idx.first hu)) f (Finset.univ : Finset (Fin b))) hf

end Reduce

end Cert.LibRowwise

end
-- ==== Proof.LibSoftmaxRows.lean ====
/-
  The softmax of a row and its Jacobian applied to a row, over the extended reals, and the two programs' spellings of
  them applied to every row of an `a × b` array.

  For a row `x` with largest entry `M` (the fold of `max` from a starting value `lo`), `soft lo x` is the row
  `q ↦ e^(x q − M) / ∑ k, e^(x k − M)`. The Jacobian of the softmax at a point whose softmax is the row `s` is the
  symmetric matrix `diag s − s sᵀ`; applied to a row `v` it gives `jac s v = q ↦ s q · (v q − ∑ k, s k · v k)`, and
  `jac2 s v = jac s (jac s v)` applies it twice; `softJac2 lo x v` is `jac2` at the softmax of the row `x`.

  * A kernel spells the row maximum and the row sums as lane reductions kept as a column and broadcast back
    (`laneMaxSpread`, `laneSumSpread`); `laneSoft X` and `laneJac S V` are its softmax and its Jacobian product of
    whole blocks, and `laneSoft_eq`, `laneJac_eq` say they treat every row by `soft` and `jac`.
  * A host program spells them as `stablehlo.reduce` and two `broadcast_in_dim`s, the maximum also joined once more
    with the starting value (`max lo M = M`, since the fold starts from `lo`: `max_rowMax`), the sums started from an
    initial value `z`; `hostSoft_eq` and `hostJac_eq` say the same of them when `z` is zero.
-/
import proofs.«155725_j62397284876677_2_alg».proof.Proof.LibRowwise

noncomputable section

namespace Cert.LibSoftmaxRows

open Idealize.ShloMosaic Idealize.ShloMosaic.ValueIdx Cert.LibRowwise

/-! ## One row -/

section Row
variable {n : ℕ}

/-- The largest entry of a row, folded from `lo`. -/
def rowMax (lo : EReal) (x : Fin n → EReal) : EReal := (Finset.univ : Finset (Fin n)).fold max lo x

/-- The fold starts from `lo`, so it is at least `lo`. -/
theorem max_rowMax (lo : EReal) (x : Fin n → EReal) : max lo (rowMax lo x) = rowMax lo x :=
  max_eq_right ((Finset.le_fold_max lo).2 (Or.inl le_rfl))

/-- The softmax of a row, shifted by its largest entry. -/
def soft (lo : EReal) (x : Fin n → EReal) (q : Fin n) : EReal :=
  Ideal.div (Ideal.exp (x q - rowMax lo x)) (∑ k, Ideal.exp (x k - rowMax lo x))

/-- The softmax Jacobian at a point whose softmax is `s`, applied to the row `v`. -/
def jac (s v : Fin n → EReal) (q : Fin n) : EReal := s q * (v q - ∑ k, s k * v k)

/-- The Jacobian applied twice. -/
def jac2 (s v : Fin n → EReal) : Fin n → EReal := jac s (jac s v)

/-- The softmax Jacobian at the softmax of the row `x`, applied twice to the row `v`. -/
def softJac2 (lo : EReal) (x v : Fin n → EReal) : Fin n → EReal := jac2 (soft lo x) v

end Row

/-! ## A kernel's lane operations -/

section Lane
variable {a b : ℕ}
variable (h : (⟨2, ![a, b]⟩ : Shape).Reduces [1] (⟨1, ![a]⟩ : Shape))
variable (hc : (⟨1, ![a]⟩ : Shape).ShapeCasts ⟨2, ![a, 1]⟩) (hb : (⟨2, ![a, 1]⟩ : Shape).Broadcasts ⟨2, ![a, b]⟩)
variable (hφ : FKind.Formats .f32)

/-- The lane maximum of every row, kept as a column and broadcast back over the lanes. -/
def laneMaxSpread (w : BitVec 32) (hw : w = FKind.maximumf.neutral .f32 hφ) (X : FVec Ideal ⟨2, ![a, b]⟩ .f32) :
    FVec Ideal ⟨2, ![a, b]⟩ .f32 :=
  broadcastTo ⟨2, ![a, b]⟩ (shapeCast ⟨2, ![a, 1]⟩ (multiReduction .maximumf [1] ⟨1, ![a]⟩ X w h hφ hw) hc) hb

/-- The lane sum of every row, kept as a column and broadcast back over the lanes. -/
def laneSumSpread (hz : (0x00000000#32 : BitVec 32) = FKind.add.neutral .f32 hφ) (X : FVec Ideal ⟨2, ![a, b]⟩ .f32) :
    FVec Ideal ⟨2, ![a, b]⟩ .f32 :=
  broadcastTo ⟨2, ![a, b]⟩ (shapeCast ⟨2, ![a, 1]⟩ (multiReduction .add [1] ⟨1, ![a]⟩ X 0x00000000#32 h hφ hz) hc) hb

theorem laneMaxSpread_apply (w : BitVec 32) (hw : w = FKind.maximumf.neutral .f32 hφ) (X : FVec Ideal ⟨2, ![a, b]⟩ .f32)
    (p : Fin a) (q : Fin b) :
    laneMaxSpread h hc hb hφ w hw X (ix2 p q) = rowMax (Ideal.ofBits .f32 w) (rowOf X p) :=
  (spread_apply _ hc hb p q).trans (laneMax_apply X h hφ w hw p)

theorem laneSumSpread_apply (hz : (0x00000000#32 : BitVec 32) = FKind.add.neutral .f32 hφ)
    (X : FVec Ideal ⟨2, ![a, b]⟩ .f32) (p : Fin a) (q : Fin b) :
    laneSumSpread h hc hb hφ hz X (ix2 p q) = ∑ k : Fin b, rowOf X p k :=
  (spread_apply _ hc hb p q).trans (laneSum_apply X h hφ hz p)

/-- A kernel's softmax of every row of a block: subtract the row maximum, exponentiate, divide by the row sum. -/
def laneSoft (w : BitVec 32) (hw : w = FKind.maximumf.neutral .f32 hφ)
    (hz : (0x00000000#32 : BitVec 32) = FKind.add.neutral .f32 hφ) (X : FVec Ideal ⟨2, ![a, b]⟩ .f32) :
    FVec Ideal ⟨2, ![a, b]⟩ .f32 :=
  divf (exp (subf X (laneMaxSpread h hc hb hφ w hw X)))
    (laneSumSpread h hc hb hφ hz (exp (subf X (laneMaxSpread h hc hb hφ w hw X))))

/-- A kernel's Jacobian product of every row: `S · (V − rowsum (S · V))`. -/
def laneJac (hz : (0x00000000#32 : BitVec 32) = FKind.add.neutral .f32 hφ) (S V : FVec Ideal ⟨2, ![a, b]⟩ .f32) :
    FVec Ideal ⟨2, ![a, b]⟩ .f32 :=
  mulf S (subf V (laneSumSpread h hc hb hφ hz (mulf S V)))

/-- The shifted exponentials of row `p`. -/
theorem rowOf_laneShiftExp (w : BitVec 32) (hw : w = FKind.maximumf.neutral .f32 hφ) (X : FVec Ideal ⟨2, ![a, b]⟩ .f32)
    (p : Fin a) :
    rowOf (exp (subf X (laneMaxSpread h hc hb hφ w hw X))) p
      = fun k => Ideal.exp (rowOf X p k - rowMax (Ideal.ofBits .f32 w) (rowOf X p)) :=
  funext fun k => by
    show Ideal.exp (X (ix2 p k) - laneMaxSpread h hc hb hφ w hw X (ix2 p k)) = _
    rw [laneMaxSpread_apply]; rfl

theorem laneSoft_eq (w : BitVec 32) (hw : w = FKind.maximumf.neutral .f32 hφ)
    (hz : (0x00000000#32 : BitVec 32) = FKind.add.neutral .f32 hφ) (X : FVec Ideal ⟨2, ![a, b]⟩ .f32) :
    laneSoft h hc hb hφ w hw hz X = onRows (soft (Ideal.ofBits .f32 w)) X := by
  funext y
  obtain ⟨p, q, rfl⟩ : ∃ (p : Fin a) (q : Fin b), y = ix2 p q := ⟨y 0, y 1, eq_ix2 y⟩
  rw [onRows_ix2]
  show Ideal.div (rowOf (exp (subf X (laneMaxSpread h hc hb hφ w hw X))) p q)
      (laneSumSpread h hc hb hφ hz (exp (subf X (laneMaxSpread h hc hb hφ w hw X))) (ix2 p q)) = _
  rw [laneSumSpread_apply, rowOf_laneShiftExp]
  rfl

theorem laneJac_eq (hz : (0x00000000#32 : BitVec 32) = FKind.add.neutral .f32 hφ) (S V : FVec Ideal ⟨2, ![a, b]⟩ .f32) :
    laneJac h hc hb hφ hz S V = onRows2 jac S V := by
  funext y
  obtain ⟨p, q, rfl⟩ : ∃ (p : Fin a) (q : Fin b), y = ix2 p q := ⟨y 0, y 1, eq_ix2 y⟩
  rw [onRows2_ix2]
  show S (ix2 p q) * (V (ix2 p q) - laneSumSpread h hc hb hφ hz (mulf S V) (ix2 p q)) = _
  rw [laneSumSpread_apply]
  rfl

end Lane

/-! ## A host program's operations -/

section Host
variable {a b : ℕ}
variable (h' : (⟨2, ![a, b]⟩ : Shape).ReducesTo [1] (⟨1, ![a]⟩ : Shape))
variable (h : (⟨2, ![a, b]⟩ : Shape).Reduces [1] (⟨1, ![a]⟩ : Shape)) (hu : 0 < (⟨0, ![]⟩ : Shape).numel)
variable (h0 : (⟨0, ![]⟩ : Shape).BroadcastsInDim (⟨1, ![a]⟩ : Shape) (![] : Fin 0 → Fin 1))
variable (h1 : (⟨1, ![a]⟩ : Shape).BroadcastsInDim ⟨2, ![a, 1]⟩ (![0] : Fin 1 → Fin 2))
variable (h2 : (⟨2, ![a, 1]⟩ : Shape).BroadcastsInDim ⟨2, ![a, b]⟩ (![0, 1] : Fin 2 → Fin 2))

/-- The maximum of every row from the scalar `lo`, joined once more with `lo` spread over the rows, kept as a column
    and spread back over the lanes. -/
def hostMaxSpread (lo : (⟨0, ![]⟩ : Shape).Idx → Ideal .f32) (X : FVec Ideal ⟨2, ![a, b]⟩ .f32) :
    FVec Ideal ⟨2, ![a, b]⟩ .f32 :=
  broadcastInDim ⟨2, ![a, b]⟩ ![0, 1] h2 (broadcastInDim ⟨2, ![a, 1]⟩ ![0] h1
    (maximumf (F := Ideal) (broadcastInDim (⟨1, ![a]⟩ : Shape) ![] h0 lo)
      (Host.reduce (FloatOps.maximumf (F := Ideal) (φ := .f32)) X lo h' hu)))

/-- The sum of every row from the scalar `z`, kept as a column and spread back over the lanes. -/
def hostSumSpread (z : (⟨0, ![]⟩ : Shape).Idx → Ideal .f32) (X : FVec Ideal ⟨2, ![a, b]⟩ .f32) :
    FVec Ideal ⟨2, ![a, b]⟩ .f32 :=
  broadcastInDim ⟨2, ![a, b]⟩ ![0, 1] h2 (broadcastInDim ⟨2, ![a, 1]⟩ ![0] h1 (Host.reduceAdd (F := Ideal) X z h' hu))

include h in
theorem hostMaxSpread_apply (lo : (⟨0, ![]⟩ : Shape).Idx → Ideal .f32) (X : FVec Ideal ⟨2, ![a, b]⟩ .f32) (p : Fin a)
    (q : Fin b) :
    hostMaxSpread h' hu h0 h1 h2 lo X (ix2 p q) = rowMax (lo (Shape.Idx.first hu)) (rowOf X p) := by
  refine (hostSpread_apply _ h1 h2 p q).trans ?_
  show max (broadcastInDim (⟨1, ![a]⟩ : Shape) ![] h0 lo (ix1 p))
      (Host.reduce (FloatOps.maximumf (F := Ideal) (φ := .f32)) X lo h' hu (ix1 p)) = _
  rw [hostMax_apply X lo h' h hu p,
    broadcastInDim_apply _ h0 lo (ix1 p) (Shape.Idx.first hu) (fun ax => ax.elim0)]
  exact max_rowMax _ _

include h in
theorem hostSumSpread_apply (z : (⟨0, ![]⟩ : Shape).Idx → Ideal .f32) (X : FVec Ideal ⟨2, ![a, b]⟩ .f32) (p : Fin a)
    (q : Fin b) :
    hostSumSpread h' hu h1 h2 z X (ix2 p q) = z (Shape.Idx.first hu) + ∑ k : Fin b, rowOf X p k :=
  (hostSpread_apply _ h1 h2 p q).trans (hostSum_apply X z h' h hu p)

/-- A host program's softmax of every row. -/
def hostSoft (lo z : (⟨0, ![]⟩ : Shape).Idx → Ideal .f32) (X : FVec Ideal ⟨2, ![a, b]⟩ .f32) :
    FVec Ideal ⟨2, ![a, b]⟩ .f32 :=
  Host.divf (F := Ideal) (Host.exp (F := Ideal) (subf X (hostMaxSpread h' hu h0 h1 h2 lo X)))
    (hostSumSpread h' hu h1 h2 z (Host.exp (F := Ideal) (subf X (hostMaxSpread h' hu h0 h1 h2 lo X))))

/-- A host program's Jacobian product of every row. -/
def hostJac (z : (⟨0, ![]⟩ : Shape).Idx → Ideal .f32) (S V : FVec Ideal ⟨2, ![a, b]⟩ .f32) :
    FVec Ideal ⟨2, ![a, b]⟩ .f32 :=
  mulf S (subf V (hostSumSpread h' hu h1 h2 z (mulf S V)))

include h in
theorem rowOf_hostShiftExp (lo : (⟨0, ![]⟩ : Shape).Idx → Ideal .f32) (X : FVec Ideal ⟨2, ![a, b]⟩ .f32) (p : Fin a) :
    rowOf (Host.exp (F := Ideal) (subf X (hostMaxSpread h' hu h0 h1 h2 lo X))) p
      = fun k => Ideal.exp (rowOf X p k - rowMax (lo (Shape.Idx.first hu)) (rowOf X p)) :=
  funext fun k => by
    show Ideal.exp (X (ix2 p k) - hostMaxSpread h' hu h0 h1 h2 lo X (ix2 p k)) = _
    rw [hostMaxSpread_apply h' h]; rfl

include h in
theorem hostSoft_eq (lo z : (⟨0, ![]⟩ : Shape).Idx → Ideal .f32) (hz : z (Shape.Idx.first hu) = 0)
    (X : FVec Ideal ⟨2, ![a, b]⟩ .f32) :
    hostSoft h' hu h0 h1 h2 lo z X = onRows (soft (lo (Shape.Idx.first hu))) X := by
  funext y
  obtain ⟨p, q, rfl⟩ : ∃ (p : Fin a) (q : Fin b), y = ix2 p q := ⟨y 0, y 1, eq_ix2 y⟩
  rw [onRows_ix2]
  show Ideal.div (rowOf (Host.exp (F := Ideal) (subf X (hostMaxSpread h' hu h0 h1 h2 lo X))) p q)
      (hostSumSpread h' hu h1 h2 z (Host.exp (F := Ideal) (subf X (hostMaxSpread h' hu h0 h1 h2 lo X))) (ix2 p q)) = _
  rw [hostSumSpread_apply h' h, rowOf_hostShiftExp h' h, hz, zero_add]
  rfl

include h in
theorem hostJac_eq (z : (⟨0, ![]⟩ : Shape).Idx → Ideal .f32) (hz : z (Shape.Idx.first hu) = 0)
    (S V : FVec Ideal ⟨2, ![a, b]⟩ .f32) :
    hostJac h' hu h1 h2 z S V = onRows2 jac S V := by
  funext y
  obtain ⟨p, q, rfl⟩ : ∃ (p : Fin a) (q : Fin b), y = ix2 p q := ⟨y 0, y 1, eq_ix2 y⟩
  rw [onRows2_ix2]
  show S (ix2 p q) * (V (ix2 p q) - hostSumSpread h' hu h1 h2 z (mulf S V) (ix2 p q)) = _
  rw [hostSumSpread_apply h' h, hz, zero_add]
  rfl

end Host

end Cert.LibSoftmaxRows

end
-- ==== Proof.KernelRows.lean ====
/-
  What the kernel body stores, strip by strip, as functions of whole rows.

  The body treats a block of 128 rows as two strips of 64. For a strip `x` of `mu` it stores the softmax of every row
  (`strip_soft`), and with the matching strip `v` of `sigma` the softmax Jacobian at that row applied twice to the row of
  `v` (`strip_jac2`): with `s = softmax x`, first `j = s · (v − ∑ s · v)`, then `s · (j − ∑ s · j)`.
-/
import proofs.«155725_j62397284876677_2_alg».proof.Proof.Gen.KernelIdeal.Skeleton
import proofs.«155725_j62397284876677_2_alg».proof.Proof.LibSoftmaxRows

noncomputable section

namespace Cert.KernelIdeal.RowValue

open Cert.KernelIdeal Cert.KernelIdeal.Gen Idealize.ShloMosaic Cert.LibRowwise Cert.LibSoftmaxRows

/-- The value the row maxima are folded from: the word of −∞, which both programs print. -/
abbrev lo : EReal := Ideal.ofBits .f32 0xFF800000#32

/-- The lane reductions are taken at f32, from the words of zero and of −∞. -/
theorem fmt : FKind.Formats .f32 := .inl rfl
theorem zeroWord : (0x00000000#32 : BitVec 32) = FKind.add.neutral .f32 fmt := rfl
theorem negInfWord : (0xFF800000#32 : BitVec 32) = FKind.maximumf.neutral .f32 fmt := rfl

/-- Given the softmax block `S` and a block `V`, the second stored value is the Jacobian product taken twice. -/
theorem pay_jac2 (S V : FVec Ideal S64x8192 .f32) : k0_pay1 (F := Ideal) S V = onRows2 jac2 S V := by
  have e : k0_pay1 (F := Ideal) S V
      = laneJac reduces_S64x8192_S64 shapeCasts_S64_S64x1 broadcasts_S64x1_S64x8192 fmt zeroWord S
          (laneJac reduces_S64x8192_S64 shapeCasts_S64_S64x1 broadcasts_S64x1_S64x8192 fmt zeroWord S V) := rfl
  rw [e, laneJac_eq, laneJac_eq]
  rfl

/-- The first stored value of the first strip: the softmax of every row. -/
theorem strip_soft (x : FVec Ideal S64x8192 .f32) : k0_pay2 (F := Ideal) x = onRows (soft lo) x :=
  laneSoft_eq reduces_S64x8192_S64 shapeCasts_S64_S64x1 broadcasts_S64x1_S64x8192 fmt 0xFF800000#32 negInfWord zeroWord x

/-- The second strip's is the same function of its rows. -/
theorem strip_soft' (x : FVec Ideal S64x8192 .f32) : k0_pay4 (F := Ideal) x = onRows (soft lo) x :=
  laneSoft_eq reduces_S64x8192_S64 shapeCasts_S64_S64x1 broadcasts_S64x1_S64x8192 fmt 0xFF800000#32 negInfWord zeroWord x

/-- The second stored value of the first strip, from the strips of `mu` and `sigma`. -/
theorem strip_jac2 (x v : FVec Ideal S64x8192 .f32) : k0_pay3 (F := Ideal) x v = onRows2 (softJac2 lo) x v := by
  have e : k0_pay3 (F := Ideal) x v = k0_pay1 (F := Ideal) (k0_pay2 (F := Ideal) x) v := rfl
  rw [e, pay_jac2, strip_soft]
  rfl

/-- The second strip's, which the body computes from its own softmax. -/
theorem strip_jac2' (x v : FVec Ideal S64x8192 .f32) :
    k0_pay1 (F := Ideal) (k0_pay4 (F := Ideal) x) v = onRows2 (softJac2 lo) x v := by
  rw [pay_jac2, strip_soft']
  rfl

end Cert.KernelIdeal.RowValue

end
-- ==== Proof.KernelBlocks.lean ====
/-
  From blocks to arrays: what the two result arrays hold after the kernel has run.

  Grid point `t` stages rows `128 t … 128 t + 127` of `mu` and of `sigma` (all 8192 lanes) and writes back the same rows
  of the two results. The body fills each output block with two strips of 64 whole rows, and every stored row is a
  function of the same row of the inputs alone — the softmax of the row of `mu`, and the softmax Jacobian there applied
  twice to the row of `sigma`. So a strip of a block of the array is treated exactly as the array is (`onRows_comp`,
  `onRows2_comp`): a block's contents are those functions of the block's rows (`block_soft`, `block_jac2`), what point `t`
  writes back is block `t` of those functions of the whole arrays (`flushed_soft`, `flushed_jac2`), and since row `r` is in
  the block of point `r / 128` the blocks cover the arrays (`cover2`, `cover3`).
-/
import proofs.«155725_j62397284876677_2_alg».proof.Proof.Gen.KernelIdeal.Value
import proofs.«155725_j62397284876677_2_alg».proof.Proof.KernelRows

noncomputable section

namespace Cert.KernelIdeal.ArrayValue

open Cert.KernelIdeal Cert.KernelIdeal.Gen Cert.KernelIdeal.Value Cert.KernelIdeal.RowValue
open Idealize.ShloMosaic Idealize.ShloMosaic.TcCoe Idealize.SL.Sem Idealize.ShloMosaic.ValueIdx
open Cert.LibRowwise Cert.LibSoftmaxRows
open Idealize.ShloMosaic.Pipeline (Dat)

variable (m : (ℓ : Loc nD τ sig) → Buf (Elt Ideal) ℓ) (ρ : Dev nD → PrngReg)

/-! ## The two strips of a block -/

/-- The first strip is rows 0 … 63 of the block. -/
theorem strip0_emb (p : Fin 64) (q : Fin 8192) : r0_0.emb (ix2 p q) = ix2 (⟨0 + p.val, by omega⟩ : Fin 128) q :=
  rowsRect_emb 0 inb_S128x8192_S64x8192_0_0 p q _

/-- The second strip is rows 64 … 127. -/
theorem strip1_emb (p : Fin 64) (q : Fin 8192) : r0_1.emb (ix2 p q) = ix2 (⟨64 + p.val, by omega⟩ : Fin 128) q :=
  rowsRect_emb 64 inb_S128x8192_S64x8192_64_0 p q _

/-- The first output block after the body: the softmax of every row of the block of `mu`. -/
theorem block_soft (x0 x1 : Vec Ideal S128x8192 .f32) : out0_2 x0 x1 = onRows (soft lo) x0 := by
  funext y
  unfold out0_2
  rw [strip_soft', strip_soft]
  refine View.canon_apply_of_pieces (onRows (soft lo) x0) _ ?_ y (cover0_2 _ _ y)
  intro pc hpc x
  rcases List.mem_cons.mp hpc with rfl | hpc
  · exact onRows_comp (soft lo) x0 r0_1.emb (fun p => ⟨64 + p.val, by omega⟩) strip1_emb x
  · obtain rfl := List.mem_singleton.mp hpc
    exact onRows_comp (soft lo) x0 r0_0.emb (fun p => ⟨0 + p.val, by omega⟩) strip0_emb x

/-- The second output block after the body: the Jacobian at the softmax of the row of `mu`, applied twice to the row of
    `sigma`. -/
theorem block_jac2 (x0 x1 : Vec Ideal S128x8192 .f32) : out0_3 x0 x1 = onRows2 (softJac2 lo) x0 x1 := by
  funext y
  unfold out0_3
  rw [strip_jac2', strip_jac2]
  refine View.canon_apply_of_pieces (onRows2 (softJac2 lo) x0 x1) _ ?_ y (cover0_3 _ _ y)
  intro pc hpc x
  rcases List.mem_cons.mp hpc with rfl | hpc
  · exact onRows2_comp (softJac2 lo) x0 x1 r0_1.emb (fun p => ⟨64 + p.val, by omega⟩) strip1_emb x
  · obtain rfl := List.mem_singleton.mp hpc
    exact onRows2_comp (softJac2 lo) x0 x1 r0_0.emb (fun p => ⟨0 + p.val, by omega⟩) strip0_emb x

/-! ## The blocks of the arrays -/

/-- The printed index maps, decided over the 64 grid points: every window's block at point `t` is block row `t`, block
    column 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 64 := lt_of_lt_of_eq t.isLt N_0

/-- Row `p` of point `t`'s block is row `128 t + p` of the array. -/
def rowAt (t : Fin cfg0.N) (p : Fin 128) : Fin 8192 := ⟨t.val * 128 + p.val, by have := point_lt t; omega⟩

theorem blk0_emb (t : Fin cfg0.N) (p : Fin 128) (q : Fin 8192) :
    ((cfg0.win 0).blk t).view.emb (ix2 p q) = ix2 (rowAt t p) q := by
  obtain ⟨e00, e01, e10, e11, e20, e21, e30, e31⟩ := idx_facts t
  funext a; apply Fin.ext
  match a with
  | ⟨0, _⟩ => show win0_0.index t (0 : Fin 2) * 128 + 1 * p.val = t.val * 128 + p.val; omega
  | ⟨1, _⟩ => show win0_0.index t (1 : Fin 2) * 8192 + 1 * q.val = q.val; omega

theorem blk1_emb (t : Fin cfg0.N) (p : Fin 128) (q : Fin 8192) :
    ((cfg0.win 1).blk t).view.emb (ix2 p q) = ix2 (rowAt t p) q := by
  obtain ⟨e00, e01, e10, e11, e20, e21, e30, e31⟩ := idx_facts t
  funext a; apply Fin.ext
  match a with
  | ⟨0, _⟩ => show win0_1.index t (0 : Fin 2) * 128 + 1 * p.val = t.val * 128 + p.val; omega
  | ⟨1, _⟩ => show win0_1.index t (1 : Fin 2) * 8192 + 1 * q.val = q.val; omega

theorem blk2_emb (t : Fin cfg0.N) (p : Fin 128) (q : Fin 8192) :
    ((cfg0.win 2).blk t).view.emb (ix2 p q) = ix2 (rowAt t p) q := by
  obtain ⟨e00, e01, e10, e11, e20, e21, e30, e31⟩ := idx_facts t
  funext a; apply Fin.ext
  match a with
  | ⟨0, _⟩ => show win0_2.index t (0 : Fin 2) * 128 + 1 * p.val = t.val * 128 + p.val; omega
  | ⟨1, _⟩ => show win0_2.index t (1 : Fin 2) * 8192 + 1 * q.val = q.val; omega

theorem blk3_emb (t : Fin cfg0.N) (p : Fin 128) (q : Fin 8192) :
    ((cfg0.win 3).blk t).view.emb (ix2 p q) = ix2 (rowAt t p) q := by
  obtain ⟨e00, e01, e10, e11, e20, e21, e30, e31⟩ := idx_facts t
  funext a; apply Fin.ext
  match a with
  | ⟨0, _⟩ => show win0_3.index t (0 : Fin 2) * 128 + 1 * p.val = t.val * 128 + p.val; omega
  | ⟨1, _⟩ => show win0_3.index t (1 : Fin 2) * 8192 + 1 * q.val = q.val; omega

/-! ## What a point writes back -/

/-- Point `t` writes back block `t` of the row-by-row softmax of `mu`. -/
theorem flushed_soft (c : Dev nD) (t : Fin cfg0.N) :
    (dats m 0 c).flushed 2 t
      = ((cfg0.win 2).blk t).view.read (Elt Ideal) (onRows (soft lo) (V m c main_arg0)) := by
  rw [flushed2]
  funext j
  show out0_2 (iblk m c 0 t) (iblk m c 1 t) j
    = onRows (soft lo) (V m c main_arg0) (((cfg0.win 2).blk t).view.emb j)
  refine (congrFun (block_soft (iblk m c 0 t) (iblk m c 1 t)) j).trans ?_
  obtain ⟨p, q, rfl⟩ : ∃ (p : Fin 128) (q : Fin 8192), j = ix2 p q := ⟨j 0, j 1, eq_ix2 j⟩
  refine (onRows_comp (soft lo) (V m c main_arg0) ((cfg0.win 0).blk t).view.emb (rowAt t) (blk0_emb t) (ix2 p q)).trans ?_
  rw [blk0_emb, blk2_emb]

/-- Point `t` writes back block `t` of the twice-applied Jacobian, row by row, of `mu` and `sigma`. -/
theorem flushed_jac2 (c : Dev nD) (t : Fin cfg0.N) :
    (dats m 0 c).flushed 3 t
      = ((cfg0.win 3).blk t).view.read (Elt Ideal) (onRows2 (softJac2 lo) (V m c main_arg0) (V m c main_arg1)) := by
  rw [flushed3]
  funext j
  show out0_3 (iblk m c 0 t) (iblk m c 1 t) j
    = onRows2 (softJac2 lo) (V m c main_arg0) (V m c main_arg1) (((cfg0.win 3).blk t).view.emb j)
  refine (congrFun (block_jac2 (iblk m c 0 t) (iblk m c 1 t)) j).trans ?_
  obtain ⟨p, q, rfl⟩ : ∃ (p : Fin 128) (q : Fin 8192), j = ix2 p q := ⟨j 0, j 1, eq_ix2 j⟩
  have h1 : iblk m c 1 t = fun y => V m c main_arg1 (((cfg0.win 0).blk t).view.emb y) := by
    funext y
    obtain ⟨p', q', rfl⟩ : ∃ (p' : Fin 128) (q' : Fin 8192), y = ix2 p' q' := ⟨y 0, y 1, eq_ix2 y⟩
    show V m c main_arg1 (((cfg0.win 1).blk t).view.emb (ix2 p' q')) = _
    rw [blk1_emb, blk0_emb]
  rw [h1]
  refine (onRows2_comp (softJac2 lo) (V m c main_arg0) (V m c main_arg1) ((cfg0.win 0).blk t).view.emb (rowAt t)
    (blk0_emb t) (ix2 p q)).trans ?_
  rw [blk0_emb, blk3_emb]

/-! ## The blocks cover the arrays -/

theorem mem_blk2 (t : Fin cfg0.N) (i : S8192x8192.Idx) :
    i ∈ ((cfg0.win 2).blk t).view.set ↔ ∀ a : Fin 2, win0_2.index t a * S128x8192.size a ≤ (i a).val
      ∧ (i a).val < win0_2.index t a * S128x8192.size a + S128x8192.size a := by
  show i ∈ ((View.whole main_v0_0).slice (win0_2.rect t)).set ↔ _
  rw [View.set_slice_whole, Rect.mem_set_unit]
  exact Iff.rfl

theorem mem_blk3 (t : Fin cfg0.N) (i : S8192x8192.Idx) :
    i ∈ ((cfg0.win 3).blk t).view.set ↔ ∀ a : Fin 2, win0_3.index t a * S128x8192.size a ≤ (i a).val
      ∧ (i a).val < win0_3.index t a * S128x8192.size a + S128x8192.size a := by
  show i ∈ ((View.whole main_v0_1).slice (win0_3.rect t)).set ↔ _
  rw [View.set_slice_whole, Rect.mem_set_unit]
  exact Iff.rfl

/-- The point whose block holds row `r`: `r / 128`. -/
def pointOf (i : S8192x8192.Idx) : Fin cfg0.N :=
  ⟨(i 0).val / 128, lt_of_lt_of_eq (by have : (i 0).val < 8192 := (i 0).isLt; omega : (i 0).val / 128 < 64) N_0.symm⟩

theorem cover2 (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  have ht : (pointOf i).val = (i 0).val / 128 := rfl
  obtain ⟨e00, e01, e10, e11, e20, e21, e30, e31⟩ := idx_facts (pointOf i)
  refine ⟨pointOf i, flush0_2 _, ?_⟩
  rw [mem_blk2]
  intro a
  match a with
  | ⟨0, _⟩ =>
    show win0_2.index (pointOf i) (0 : Fin 2) * 128 ≤ (i 0).val
      ∧ (i 0).val < win0_2.index (pointOf i) (0 : Fin 2) * 128 + 128
    omega
  | ⟨1, _⟩ =>
    show win0_2.index (pointOf i) (1 : Fin 2) * 8192 ≤ (i 1).val
      ∧ (i 1).val < win0_2.index (pointOf i) (1 : Fin 2) * 8192 + 8192
    omega

theorem cover3 (i : S8192x8192.Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  have ht : (pointOf i).val = (i 0).val / 128 := rfl
  obtain ⟨e00, e01, e10, e11, e20, e21, e30, e31⟩ := idx_facts (pointOf i)
  refine ⟨pointOf i, flush0_3 _, ?_⟩
  rw [mem_blk3]
  intro a
  match a with
  | ⟨0, _⟩ =>
    show win0_3.index (pointOf i) (0 : Fin 2) * 128 ≤ (i 0).val
      ∧ (i 0).val < win0_3.index (pointOf i) (0 : Fin 2) * 128 + 128
    omega
  | ⟨1, _⟩ =>
    show win0_3.index (pointOf i) (1 : Fin 2) * 8192 ≤ (i 1).val
      ∧ (i 1).val < win0_3.index (pointOf i) (1 : Fin 2) * 8192 + 8192
    omega

/-! ## The arrays after the run -/

/-- The first result array ends holding the softmax of every row of `mu`. -/
theorem final_soft (c : Dev nD) :
    (dats m 0 c).arrAt 2 cfg0.N = onRows (soft lo) (m ((c : Thread nD τ).loc main_arg0)) :=
  (dats m 0 c).arrAt_eq_of_cover 2 (onRows (soft lo) (V m c main_arg0)) (fun t _ => flushed_soft m c t) cover2

/-- The second ends holding, row by row, the Jacobian at the softmax of `mu`'s row applied twice to `sigma`'s row. -/
theorem final_jac2 (c : Dev nD) :
    (dats m 0 c).arrAt 3 cfg0.N
      = onRows2 (softJac2 lo) (m ((c : Thread nD τ).loc main_arg0)) (m ((c : Thread nD τ).loc main_arg1)) :=
  (dats m 0 c).arrAt_eq_of_cover 3 (onRows2 (softJac2 lo) (V m c main_arg0) (V m c main_arg1))
    (fun t _ => flushed_jac2 m c t) cover3

/-- The kernel's run with both result arrays read as functions of the argument arrays, the arguments unchanged. -/
theorem run : θ_run defs (onTc (τ := τ) (main (F := Ideal))) ⟨m, fun _ => 0, ρ⟩ fun r => ∀ c : Dev nD,
      r.2.mem ((c : Thread nD τ).loc main_v0_0) = onRows (soft lo) (m ((c : Thread nD τ).loc main_arg0))
      ∧ r.2.mem ((c : Thread nD τ).loc main_v0_1)
          = onRows2 (softJac2 lo) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_soft m c), (h c).2.1.trans (final_jac2 m c),
      (h c).2.2.1, (h c).2.2.2⟩)
    (run_blocks m ρ)

end Cert.KernelIdeal.ArrayValue

end
-- ==== Proof.RefRows.lean ====
/-
  What the reference computes, as functions of whole rows: its first result is the softmax of every row of `mu`, and
  its second the softmax Jacobian at that row applied twice to the same row of `sigma`.
-/
import proofs.«155725_j62397284876677_2_alg».proof.Proof.Gen.ReferenceIdeal.Read
import proofs.«155725_j62397284876677_2_alg».proof.Proof.LibSoftmaxRows

noncomputable section

namespace Cert.ReferenceIdeal.RowValue

open Cert.ReferenceIdeal Cert.ReferenceIdeal.Gen Cert.ReferenceIdeal.Read Idealize.ShloMosaic Cert.LibRowwise
  Cert.LibSoftmaxRows

/-- The value the row maxima are folded from: the word of −∞. -/
abbrev lo : EReal := Ideal.ofBits .f32 0xFF800000#32

/-- Column 1 is the axis summed over. -/
theorem lanes : S8192x8192.Reduces [1] S8192 := by decide

/-- The sums start from the word of zero. -/
theorem zeroInit : constant (F := Ideal) S_ .f32 0x00000000#32 (Shape.Idx.first h_S_) = 0 := Ideal.ofBits_zero_f32

/-- The first result: the softmax of every row. -/
theorem ref_soft (x0 : FVec Ideal S8192x8192 .f32) : val_main_v10 (F := Ideal) x0 = onRows (soft lo) x0 := by
  have e : val_main_v10 (F := Ideal) x0
      = hostSoft reducesTo_S8192x8192_S8192_d1 h_S_ bcast_S_S8192 bcast_S8192_S8192x1_0 bcast_S8192x1_S8192x8192_0_1
          (constant (F := Ideal) S_ .f32 0xFF800000#32) (constant (F := Ideal) S_ .f32 0x00000000#32) x0 := rfl
  rw [e, hostSoft_eq reducesTo_S8192x8192_S8192_d1 lanes h_S_ bcast_S_S8192 bcast_S8192_S8192x1_0
    bcast_S8192x1_S8192x8192_0_1 _ _ zeroInit]
  rfl

/-- The second result: with `s` the softmax, `s · (j − ∑ s · j)` of `j = s · (sigma − ∑ s · sigma)`, row by row. -/
theorem ref_jac2 (x0 x1 : FVec Ideal S8192x8192 .f32) :
    val_main_v22 (F := Ideal) x0 x1 = onRows2 (softJac2 lo) x0 x1 := by
  have e : val_main_v22 (F := Ideal) x0 x1
      = hostJac reducesTo_S8192x8192_S8192_d1 h_S_ bcast_S8192_S8192x1_0 bcast_S8192x1_S8192x8192_0_1
          (constant (F := Ideal) S_ .f32 0x00000000#32) (val_main_v10 (F := Ideal) x0)
          (hostJac reducesTo_S8192x8192_S8192_d1 h_S_ bcast_S8192_S8192x1_0 bcast_S8192x1_S8192x8192_0_1
            (constant (F := Ideal) S_ .f32 0x00000000#32) (val_main_v10 (F := Ideal) x0) x1) := rfl
  rw [e, hostJac_eq reducesTo_S8192x8192_S8192_d1 lanes h_S_ bcast_S8192_S8192x1_0 bcast_S8192x1_S8192x8192_0_1 _ zeroInit,
    hostJac_eq reducesTo_S8192x8192_S8192_d1 lanes h_S_ bcast_S8192_S8192x1_0 bcast_S8192x1_S8192x8192_0_1 _ zeroInit,
    ref_soft]
  rfl

end Cert.ReferenceIdeal.RowValue

end
-- ==== Proof.lean ====
/- The proof of `Cert.Claim`: the kernel computes, over 64 blocks of 128 rows, the softmax `s` of every row of `mu` and
   the softmax Jacobian `diag s − s sᵀ` applied twice to the same row of `sigma`; the reference computes the same two
   arrays with whole-array operations. Over the extended reals both are the same function of each row, operation for
   operation: the row maximum is the fold of `max` from −∞ on both sides (the reference joins it once more with −∞,
   which changes nothing since the fold starts there), the exponentials, the quotient and the products are the same
   extended-real operations, and each row sum is the same finite sum (the reference's started from zero). No algebraic
   law beyond `max lo M = M` and `0 + x = x` is needed, so the precondition is never opened.

   The three frames are the generated ones (the reference's is its generated run with the results dropped); the ideal
   pass rewrote nothing, so `preserves` is `True`. For `algebraic`: `Cert.KernelIdeal.ArrayValue.run` reads the two result
   arrays of the kernel's run as `onRows (soft lo)` of `mu` and `onRows2 (softJac2 lo)` of `mu` and `sigma`, and
   `Cert.ReferenceIdeal.RowValue.ref_soft` / `ref_jac2` read the reference's two results as the same functions. -/
import proofs.«155725_j62397284876677_2_alg».proof.Defs
import proofs.«155725_j62397284876677_2_alg».proof.Proof.Gen.Kernel
import proofs.«155725_j62397284876677_2_alg».proof.Proof.Gen.Kernel.Skeleton
import proofs.«155725_j62397284876677_2_alg».proof.Proof.Gen.Kernel.Launch
import proofs.«155725_j62397284876677_2_alg».proof.Proof.Gen.Kernel.Points
import proofs.«155725_j62397284876677_2_alg».proof.Proof.Gen.Kernel.Frame
import proofs.«155725_j62397284876677_2_alg».proof.Proof.Gen.KernelIdeal
import proofs.«155725_j62397284876677_2_alg».proof.Proof.Gen.KernelIdeal.Skeleton
import proofs.«155725_j62397284876677_2_alg».proof.Proof.Gen.KernelIdeal.Launch
import proofs.«155725_j62397284876677_2_alg».proof.Proof.Gen.KernelIdeal.Points
import proofs.«155725_j62397284876677_2_alg».proof.Proof.Gen.KernelIdeal.Frame
import proofs.«155725_j62397284876677_2_alg».proof.Proof.Gen.ReferenceIdeal
import proofs.«155725_j62397284876677_2_alg».proof.Proof.Gen.Pre_finite_inputs
import proofs.«155725_j62397284876677_2_alg».proof.Proof.Gen.KernelIdeal.Value
import proofs.«155725_j62397284876677_2_alg».proof.Proof.Gen.ReferenceIdeal.Run
import proofs.«155725_j62397284876677_2_alg».proof.Proof.Gen.ReferenceIdeal.Read
import proofs.«155725_j62397284876677_2_alg».proof.Proof.KernelBlocks
import proofs.«155725_j62397284876677_2_alg».proof.Proof.RefRows
import Idealize.ShloMosaic.Adequacy
import Idealize.ShloMosaic.Init

noncomputable section

namespace Cert.Proof

open Idealize.ShloMosaic Idealize.ShloMosaic.TcCoe Idealize.SL.Sem Cert.LibRowwise Cert.LibSoftmaxRows

/-- The word-level kernel runs and leaves its arguments alone. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, its two results dropped. -/
theorem frame_ri : Cert.frame_ReferenceIdeal := fun m ρ _ =>
  (θ_run Cert.ReferenceIdeal.defs _ _).mono (fun _ h c => (h c).2.2)
    (Cert.ReferenceIdeal.Value.run (F := Ideal) m ρ)

/-- Both programs end with the row-by-row softmax of `mu` and the twice-applied Jacobian of `mu` and `sigma`. -/
theorem algebraic : Cert.algebraic_KernelIdeal_ReferenceIdeal := by
  intro m ρ m' ρ' _ hagree
  refine ⟨_, _, Cert.KernelIdeal.ArrayValue.run m ρ, ?_⟩
  refine (θ_run Cert.ReferenceIdeal.defs _ _).mono
    (fun _ h c => ⟨(h c).1.trans ?_, (h c).2.1.trans ?_, (h c).2.2.1, (h c).2.2.2⟩)
    (Cert.ReferenceIdeal.Value.run (F := Ideal) m' ρ')
  · rw [Cert.ReferenceIdeal.Read.val_main_v10_eq, Cert.ReferenceIdeal.RowValue.ref_soft, (hagree c).1]
  · rw [Cert.ReferenceIdeal.Read.val_main_v22_eq, Cert.ReferenceIdeal.RowValue.ref_jac2, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
